-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S48x32 1) : IVec S_ 1 :=
  let main_c_5 : IVec S_ 1 := constantI S_ 1 1#1
  let main_v17 : IVec S_ 1 := (fun x v => Host.reduce IntOp.andi x v reducesTo_S48x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x48 .f32) (main_arg3 : FVec F S48 .f32) (main_arg4 : FVec F S48x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x48 .f32 := Host.absf main_arg2
  let main_cst_0 : FVec F S_ .f32 := constant S_ .f32 0x7F800000#32
  let main_v5 : FVec F S128x48 .f32 := broadcastInDim S128x48 ![] bcast_S_S128x48 main_cst_0
  let main_v6 : IVec S128x48 1 := cmpf .olt main_v4 main_v5
  let main_c_1 : IVec S_ 1 := constantI S_ 1 1#1
  let main_v7 : IVec S_ 1 := (fun x v => Host.reduce IntOp.andi x v reducesTo_S128x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x32 .f32 := Host.absf main_arg4
  let main_cst_4 : FVec F S_ .f32 := constant S_ .f32 0x7F800000#32
  let main_v15 : FVec F S48x32 .f32 := broadcastInDim S48x32 ![] bcast_S_S48x32 main_cst_4
  let main_v16 : IVec S48x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S10000x128 : Shape := ⟨2, ![10000, 128]⟩
abbrev S10000x48 : Shape := ⟨2, ![10000, 48]⟩
abbrev S1700000x48 : Shape := ⟨2, ![1700000, 48]⟩
abbrev S1x48 : Shape := ⟨2, ![1, 48]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x48, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x48, .f32⟩
  | .hbm, ⟨56, _⟩ => ⟨S1700000x1, .f32⟩
  | .hbm, ⟨57, _⟩ => ⟨S1700000x48, .f32⟩
  | .hbm, ⟨58, _⟩ => ⟨S1700000x48, .f32⟩
  | .hbm, ⟨59, _⟩ => ⟨S_, .f32⟩
  | .hbm, ⟨60, _⟩ => ⟨S100000x48, .f32⟩
  | .hbm, ⟨61, _⟩ => ⟨S1700000x1, .i32⟩
  | .hbm, ⟨62, _⟩ => ⟨S100000x48, .f32⟩
  | .hbm, ⟨63, _⟩ => ⟨S1x48, .f32⟩
  | .hbm, ⟨64, _⟩ => ⟨S100000x48, .f32⟩
  | .hbm, ⟨65, _⟩ => ⟨S100000x48, .f32⟩
  | .hbm, ⟨66, _⟩ => ⟨S_, .f32⟩
  | .hbm, ⟨67, _⟩ => ⟨S100000x48, .f32⟩
  | .hbm, ⟨68, _⟩ => ⟨S100000x48, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x48, .f32⟩
  | .local _ .vmem, ⟨3, _⟩ => ⟨S10000x48, .f32⟩
  | .local _ .vmem, ⟨4, _⟩ => ⟨S10000x48, .f32⟩
  | .local _ .vmem, ⟨5, _⟩ => ⟨S10000x48, .f32⟩
  | .local _ .vmem, ⟨6, _⟩ => ⟨S10000x48, .f32⟩
  | .local _ .vmem, ⟨7, _⟩ => ⟨S48x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  inb_S10000x48_S10000x48_0_0 : ∀ a, (![0, 0] : Fin 2 → Nat) a + S10000x48.size a ≤ S10000x48.size a
  h_S10000x48 : 0 < S10000x48.numel
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  shapeCasts_S10000x48_S10000x48 : S10000x48.ShapeCasts S10000x48
  inb_S48x32_S48x32_0_0 : ∀ a, (![0, 0] : Fin 2 → Nat) a + S48x32.size a ≤ S48x32.size a
  h_S48x32 : 0 < S48x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x48_S10000x48_1_0_0_1_n_n_wf : DotDims.WF S10000x128 S128x48 S10000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S10000x48_S48x32_S10000x32_1_0_0_1_n_n_wf : DotDims.WF S10000x48 S48x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x48.size a ≤ S100000x48.size a
  hwx0_2 : ∀ i : grid0.Coords, EltTy.bits .f32 = 32 ∨ (Rect.block (s := S100000x48) S10000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x32.size a ≤ S48x32.size a
  hwx1_1 : ∀ i : grid1.Coords, EltTy.bits .f32 = 32 ∨ (Rect.block (s := S48x32) S48x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x48_S10000x48_1_0_0_1_n_n : DotDims S10000x128 S128x48 S10000x48 where
  lhsContracting := [1]
  rhsContracting := [0]
  lhsNonContracting := [0]
  rhsNonContracting := [1]
  lhsBatch := []
  rhsBatch := []
  wf := dot_S10000x128_S128x48_S10000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S10000x48_S48x32_S10000x32_1_0_0_1_n_n : DotDims S10000x48 S48x32 S10000x32 where
  lhsContracting := [1]
  rhsContracting := [0]
  lhsNonContracting := [0]
  rhsNonContracting := [1]
  lhsBatch := []
  rhsBatch := []
  wf := dot_S10000x48_S48x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S48x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S1700000x48 : Shape := ⟨2, ![1700000, 48]⟩
abbrev S1x48 : Shape := ⟨2, ![1, 48]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x48, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x48, .f32⟩
  | .hbm, ⟨56, _⟩ => ⟨S1700000x1, .f32⟩
  | .hbm, ⟨57, _⟩ => ⟨S1700000x48, .f32⟩
  | .hbm, ⟨58, _⟩ => ⟨S1700000x48, .f32⟩
  | .hbm, ⟨59, _⟩ => ⟨S_, .f32⟩
  | .hbm, ⟨60, _⟩ => ⟨S100000x48, .f32⟩
  | .hbm, ⟨61, _⟩ => ⟨S1700000x1, .i32⟩
  | .hbm, ⟨62, _⟩ => ⟨S100000x48, .f32⟩
  | .hbm, ⟨63, _⟩ => ⟨S1x48, .f32⟩
  | .hbm, ⟨64, _⟩ => ⟨S100000x48, .f32⟩
  | .hbm, ⟨65, _⟩ => ⟨S100000x48, .f32⟩
  | .hbm, ⟨66, _⟩ => ⟨S_, .f32⟩
  | .hbm, ⟨67, _⟩ => ⟨S100000x48, .f32⟩
  | .hbm, ⟨68, _⟩ => ⟨S100000x48, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x48_S100000x48_1_0_0_1_n_n_wf : DotDims.WF S100000x128 S128x48 S100000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S100000x48_S48x32_S100000x32_1_0_0_1_n_n_wf : DotDims.WF S100000x48 S48x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x48_S100000x48_1_0_0_1_n_n : DotDims S100000x128 S128x48 S100000x48 where
  lhsContracting := [1]
  rhsContracting := [0]
  lhsNonContracting := [0]
  rhsNonContracting := [1]
  lhsBatch := []
  rhsBatch := []
  wf := dot_S100000x128_S128x48_S100000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S100000x48_S48x32_S100000x32_1_0_0_1_n_n : DotDims S100000x48 S48x32 S100000x32 where
  lhsContracting := [1]
  rhsContracting := [0]
  lhsNonContracting := [0]
  rhsNonContracting := [1]
  lhsBatch := []
  rhsBatch := []
  wf := dot_S100000x48_S48x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.Region0.lean ====
/-
  Region 0 of the kernel's program: a matrix product tiled by rows.

  The region's grid has ten points. Point `t` is handed rows `10000·t … 10000·t + 9999` of the left array (all 128 columns) and the whole
  128 × 48 right array, and stores into rows `10000·t … 10000·t + 9999` of the output the product of the two blocks: entry (p, q) of the
  block is `Σ_k left(p, k) · right(k, q)` — over the extended reals the change of format on the way in is the identity and a
  product accumulated from zero is the plain sum. Row `10000·t + p` of the left array is row `p` of its block, so what point `t`
  writes back is block `t` of ONE function of the two whole arrays, `rowsTimes`: entry (r, q) is `Σ_k left(r, k) · right(k, q)`.
  The ten row blocks tile the output (row `r` lies in block `r / 10000`), so after the last point the output array IS that function.
-/
import proofs.«164830_j17514876634161_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

/-! ## The product as one function of the two whole arrays -/

/-- Entry (r, k) of the left array, for the output index `i = (r, q)`. -/
abbrev leftAt (i : S100000x48.Idx) (k : Fin 128) : S100000x128.Idx := fun a => match a with
  | ⟨0, _⟩ => ⟨(i 0).val, (i 0).isLt⟩
  | ⟨1, _⟩ => ⟨k.val, k.isLt⟩
/-- Entry (k, q) of the right array, for the output index `i = (r, q)`. -/
abbrev rightAt (i : S100000x48.Idx) (k : Fin 128) : S128x48.Idx := fun a => match a with
  | ⟨0, _⟩ => ⟨k.val, k.isLt⟩
  | ⟨1, _⟩ => ⟨(i 1).val, (i 1).isLt⟩

/-- The rows-by-columns product over the extended reals: entry (r, q) is `Σ_k left(r, k) · right(k, q)`. -/
def rowsTimes (left : (⟨S100000x128, .f32⟩ : BufTy).Contents (Elt Ideal)) (right : (⟨S128x48, .f32⟩ : BufTy).Contents (Elt Ideal)) :
    (⟨S100000x48, .f32⟩ : BufTy).Contents (Elt Ideal) :=
  fun i => ∑ k : Fin 128, left (leftAt i k) * right (rightAt i k)

/-! ## One point: the stored block, entry by entry -/

/-- Entry (p, k) of the left block, for the block index `j = (p, q)`. -/
abbrev leftBlk (j : S10000x48.Idx) (k : Fin 128) : S10000x128.Idx := fun a => match a with
  | ⟨0, _⟩ => ⟨(j 0).val, (j 0).isLt⟩
  | ⟨1, _⟩ => ⟨k.val, k.isLt⟩
/-- Entry (k, q) of the right array, for the block index `j = (p, q)`. -/
abbrev rightBlk (j : S10000x48.Idx) (k : Fin 128) : S128x48.Idx := fun a => match a with
  | ⟨0, _⟩ => ⟨k.val, k.isLt⟩
  | ⟨1, _⟩ => ⟨(j 1).val, (j 1).isLt⟩

/-- The product's left factor at (p, q) and contraction position `k` sits in row `p` … -/
theorem lhs_row (j : S10000x48.Idx) (q : dot_S10000x128_S128x48_S10000x48_1_0_0_1_n_n.contr.Idx) :
    (dot_S10000x128_S128x48_S10000x48_1_0_0_1_n_n.lhsIdx j q 0).val = (j 0).val := by
  unfold DotDims.lhsIdx
  rw [dif_neg (show ¬(0 : Fin S10000x128.rank) ∈ dot_S10000x128_S128x48_S10000x48_1_0_0_1_n_n.lhsBatch by decide), dif_pos (show (0 : Fin S10000x128.rank) ∈ dot_S10000x128_S128x48_S10000x48_1_0_0_1_n_n.lhsNonContracting by decide)]
  rfl
/-- … and column `k`; -/
theorem lhs_col (j : S10000x48.Idx) (q : dot_S10000x128_S128x48_S10000x48_1_0_0_1_n_n.contr.Idx) :
    (dot_S10000x128_S128x48_S10000x48_1_0_0_1_n_n.lhsIdx j q 1).val = (q ⟨0, by decide⟩).val :=
  dot_S10000x128_S128x48_S10000x48_1_0_0_1_n_n.lhsIdx_val_of_single rfl j q
/-- the right factor in row `k` … -/
theorem rhs_row (j : S10000x48.Idx) (q : dot_S10000x128_S128x48_S10000x48_1_0_0_1_n_n.contr.Idx) :
    (dot_S10000x128_S128x48_S10000x48_1_0_0_1_n_n.rhsIdx j q 0).val = (q ⟨0, by decide⟩).val :=
  dot_S10000x128_S128x48_S10000x48_1_0_0_1_n_n.rhsIdx_val_of_single rfl j q
/-- … and column `q`. -/
theorem rhs_col (j : S10000x48.Idx) (q : dot_S10000x128_S128x48_S10000x48_1_0_0_1_n_n.contr.Idx) :
    (dot_S10000x128_S128x48_S10000x48_1_0_0_1_n_n.rhsIdx j q 1).val = (j 1).val := by
  unfold DotDims.rhsIdx
  rw [dif_neg (show ¬(1 : Fin S128x48.rank) ∈ dot_S10000x128_S128x48_S10000x48_1_0_0_1_n_n.rhsBatch by decide), dif_pos (show (1 : Fin S128x48.rank) ∈ dot_S10000x128_S128x48_S10000x48_1_0_0_1_n_n.rhsNonContracting by decide)]
  rfl

/-- What one point stores, entry by entry: `Σ_k left(p, k) · right(k, q)` of the two blocks it was handed (over the extended
    reals the narrowing of the operands is the identity, and the product is accumulated from zero). -/
theorem stored_apply (x0 : Vec Ideal S10000x128 .f32) (x1 : Vec Ideal S128x48 .f32) (j : S10000x48.Idx) :
    k0_pay1 (F := Ideal) x0 x1 j = ∑ k : Fin 128, x0 (leftBlk j k) * x1 (rightBlk j k) := by
  unfold k0_pay1
  refine (Ideal.matmul_constant_zero_apply dot_S10000x128_S128x48_S10000x48_1_0_0_1_n_n none _ _ j).trans ?_
  rw [← Equiv.sum_comp (ValueIdx.contrEquiv1 dot_S10000x128_S128x48_S10000x48_1_0_0_1_n_n 128 rfl rfl).symm]
  refine Finset.sum_congr rfl fun k _ => ?_
  have hk := ValueIdx.contrEquiv1_symm_val dot_S10000x128_S128x48_S10000x48_1_0_0_1_n_n 128 rfl rfl k
  have el : dot_S10000x128_S128x48_S10000x48_1_0_0_1_n_n.lhsIdx j ((ValueIdx.contrEquiv1 dot_S10000x128_S128x48_S10000x48_1_0_0_1_n_n 128 rfl rfl).symm k) = leftBlk j k := funext fun a => Fin.ext (by
    match a with
    | ⟨0, _⟩ => exact lhs_row _ _
    | ⟨1, _⟩ => exact (lhs_col _ _).trans hk)
  have er : dot_S10000x128_S128x48_S10000x48_1_0_0_1_n_n.rhsIdx j ((ValueIdx.contrEquiv1 dot_S10000x128_S128x48_S10000x48_1_0_0_1_n_n 128 rfl rfl).symm k) = rightBlk j k := funext fun a => Fin.ext (by
    match a with
    | ⟨0, _⟩ => exact (rhs_row _ _).trans hk
    | ⟨1, _⟩ => exact rhs_col _ _)
  show x0 (dot_S10000x128_S128x48_S10000x48_1_0_0_1_n_n.lhsIdx j _) * x1 (dot_S10000x128_S128x48_S10000x48_1_0_0_1_n_n.rhsIdx j _) = _
  rw [el, er]

/-! ## From the ten blocks to the array -/

/-- A product of two reads moves along equal indices. -/
theorem mul_congr_at {ι κ : Type} (f : ι → EReal) (g : κ → EReal) {a a' : ι} {b b' : κ} (ha : a = a') (hb : b = b') :
    f a * g b = f a' * g b' := by rw [ha, hb]

theorem hz : (![0, 0] : Fin 2 → Nat) = fun _ => 0 := funext fun a => by fin_cases a <;> rfl

/-- The three windows' block positions at point `t`: the left array's and the output's blocks move down one block of rows per
    point, the right array's one block stays (decided over the ten points). -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- WHAT POINT `t` WRITES BACK is block `t` of the product of the two arrays as the region finds them. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x48) hz]
  obtain ⟨e0, e1, e2, e3, e4, e5⟩ := block_positions t
  funext j
  show k0_pay1 (iblk0 V c 0 t) (iblk0 V c 1 t) j = rowsTimes (V c main_arg0) (V c main_arg2) (((cfg0.win 2).blk t).view.emb j)
  refine (stored_apply (iblk0 V c 0 t) (iblk0 V c 1 t) j).trans ?_
  refine Finset.sum_congr rfl fun k _ => ?_
  have h0 : ((cfg0.win 0).blk t).view.emb (leftBlk j k) = leftAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (rightBlk j k) = rightAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 48 + 1 * (j 1).val = win0_2.index t (1 : Fin 2) * 48 + 1 * (j 1).val; omega
  exact mul_congr_at (V c main_arg0) (V c main_arg2) h0 h1

/-- An index of the output array is in point `t`'s block iff each coordinate is in the block's range on its axis. -/
theorem mem_blk (t : Fin cfg0.N) (i : S100000x48.Idx) :
    i ∈ ((cfg0.win 2).blk t).view.set ↔ ∀ a : Fin 2, win0_2.index t a * S10000x48.size a ≤ (i a).val ∧ (i a).val < win0_2.index t a * S10000x48.size a + S10000x48.size a := by
  show i ∈ ((View.whole main_v30).slice (win0_2.rect t)).set ↔ _
  rw [View.set_slice_whole, Rect.mem_set_unit]
  exact Iff.rfl

/-- Every index of the output array is in some point's block: row `r` is in the block of point `r / 10000`. -/
theorem covered (i : S100000x48.Idx) : ∃ t : Fin cfg0.N, (cfg0.win 2).flush t = true ∧ i ∈ ((cfg0.win 2).blk t).view.set := by
  have hi0 : (i 0).val < 100000 := (i 0).isLt
  have hi1 : (i 1).val < 48 := (i 1).isLt
  obtain ⟨t, ht⟩ : ∃ t : Fin cfg0.N, t.val = (i 0).val / 10000 := ⟨⟨(i 0).val / 10000, by rw [show cfg0.N = 10 from N_0]; omega⟩, rfl⟩
  obtain ⟨e0, e1, e2, e3, e4, e5⟩ := block_positions t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 48 ≤ (i 1).val ∧ (i 1).val < win0_2.index t (1 : Fin 2) * 48 + 48; omega

/-- THE OUTPUT ARRAY after the region's last point is the product of the two arrays as the region finds them. -/
theorem array_eq (c : Dev nD) : (dat0 V c).arrAt 2 cfg0.N = rowsTimes (V c main_arg0) (V c main_arg2) :=
  (dat0 V c).arrAt_eq_of_cover 2 (rowsTimes (V c main_arg0) (V c main_arg2)) (fun t _ => flushed_eq V c t) covered

end

end Cert.KernelIdeal.Region0

end
-- ==== Proof.Region1.lean ====
/-
  Region 1 of the kernel's program: a matrix product tiled by rows.

  The region's grid has ten points. Point `t` is handed rows `10000·t … 10000·t + 9999` of the left array (all 48 columns) and the whole
  48 × 32 right array, and stores into rows `10000·t … 10000·t + 9999` of the output the product of the two blocks: entry (p, q) of the
  block is `Σ_k left(p, k) · right(k, q)` — over the extended reals the change of format on the way in is the identity and a
  product accumulated from zero is the plain sum. Row `10000·t + p` of the left array is row `p` of its block, so what point `t`
  writes back is block `t` of ONE function of the two whole arrays, `rowsTimes`: entry (r, q) is `Σ_k left(r, k) · right(k, q)`.
  The ten row blocks tile the output (row `r` lies in block `r / 10000`), so after the last point the output array IS that function.
-/
import proofs.«164830_j17514876634161_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

/-! ## The product as one function of the two whole arrays -/

/-- Entry (r, k) of the left array, for the output index `i = (r, q)`. -/
abbrev leftAt (i : S100000x32.Idx) (k : Fin 48) : S100000x48.Idx := fun a => match a with
  | ⟨0, _⟩ => ⟨(i 0).val, (i 0).isLt⟩
  | ⟨1, _⟩ => ⟨k.val, k.isLt⟩
/-- Entry (k, q) of the right array, for the output index `i = (r, q)`. -/
abbrev rightAt (i : S100000x32.Idx) (k : Fin 48) : S48x32.Idx := fun a => match a with
  | ⟨0, _⟩ => ⟨k.val, k.isLt⟩
  | ⟨1, _⟩ => ⟨(i 1).val, (i 1).isLt⟩

/-- The rows-by-columns product over the extended reals: entry (r, q) is `Σ_k left(r, k) · right(k, q)`. -/
def rowsTimes (left : (⟨S100000x48, .f32⟩ : BufTy).Contents (Elt Ideal)) (right : (⟨S48x32, .f32⟩ : BufTy).Contents (Elt Ideal)) :
    (⟨S100000x32, .f32⟩ : BufTy).Contents (Elt Ideal) :=
  fun i => ∑ k : Fin 48, left (leftAt i k) * right (rightAt i k)

/-! ## One point: the stored block, entry by entry -/

/-- Entry (p, k) of the left block, for the block index `j = (p, q)`. -/
abbrev leftBlk (j : S10000x32.Idx) (k : Fin 48) : S10000x48.Idx := fun a => match a with
  | ⟨0, _⟩ => ⟨(j 0).val, (j 0).isLt⟩
  | ⟨1, _⟩ => ⟨k.val, k.isLt⟩
/-- Entry (k, q) of the right array, for the block index `j = (p, q)`. -/
abbrev rightBlk (j : S10000x32.Idx) (k : Fin 48) : S48x32.Idx := fun a => match a with
  | ⟨0, _⟩ => ⟨k.val, k.isLt⟩
  | ⟨1, _⟩ => ⟨(j 1).val, (j 1).isLt⟩

/-- The product's left factor at (p, q) and contraction position `k` sits in row `p` … -/
theorem lhs_row (j : S10000x32.Idx) (q : dot_S10000x48_S48x32_S10000x32_1_0_0_1_n_n.contr.Idx) :
    (dot_S10000x48_S48x32_S10000x32_1_0_0_1_n_n.lhsIdx j q 0).val = (j 0).val := by
  unfold DotDims.lhsIdx
  rw [dif_neg (show ¬(0 : Fin S10000x48.rank) ∈ dot_S10000x48_S48x32_S10000x32_1_0_0_1_n_n.lhsBatch by decide), dif_pos (show (0 : Fin S10000x48.rank) ∈ dot_S10000x48_S48x32_S10000x32_1_0_0_1_n_n.lhsNonContracting by decide)]
  rfl
/-- … and column `k`; -/
theorem lhs_col (j : S10000x32.Idx) (q : dot_S10000x48_S48x32_S10000x32_1_0_0_1_n_n.contr.Idx) :
    (dot_S10000x48_S48x32_S10000x32_1_0_0_1_n_n.lhsIdx j q 1).val = (q ⟨0, by decide⟩).val :=
  dot_S10000x48_S48x32_S10000x32_1_0_0_1_n_n.lhsIdx_val_of_single rfl j q
/-- the right factor in row `k` … -/
theorem rhs_row (j : S10000x32.Idx) (q : dot_S10000x48_S48x32_S10000x32_1_0_0_1_n_n.contr.Idx) :
    (dot_S10000x48_S48x32_S10000x32_1_0_0_1_n_n.rhsIdx j q 0).val = (q ⟨0, by decide⟩).val :=
  dot_S10000x48_S48x32_S10000x32_1_0_0_1_n_n.rhsIdx_val_of_single rfl j q
/-- … and column `q`. -/
theorem rhs_col (j : S10000x32.Idx) (q : dot_S10000x48_S48x32_S10000x32_1_0_0_1_n_n.contr.Idx) :
    (dot_S10000x48_S48x32_S10000x32_1_0_0_1_n_n.rhsIdx j q 1).val = (j 1).val := by
  unfold DotDims.rhsIdx
  rw [dif_neg (show ¬(1 : Fin S48x32.rank) ∈ dot_S10000x48_S48x32_S10000x32_1_0_0_1_n_n.rhsBatch by decide), dif_pos (show (1 : Fin S48x32.rank) ∈ dot_S10000x48_S48x32_S10000x32_1_0_0_1_n_n.rhsNonContracting by decide)]
  rfl

/-- What one point stores, entry by entry: `Σ_k left(p, k) · right(k, q)` of the two blocks it was handed (over the extended
    reals the narrowing of the operands is the identity, and the product is accumulated from zero). -/
theorem stored_apply (x0 : Vec Ideal S10000x48 .f32) (x1 : Vec Ideal S48x32 .f32) (j : S10000x32.Idx) :
    k1_pay1 (F := Ideal) x0 x1 j = ∑ k : Fin 48, x0 (leftBlk j k) * x1 (rightBlk j k) := by
  unfold k1_pay1
  refine (Ideal.matmul_constant_zero_apply dot_S10000x48_S48x32_S10000x32_1_0_0_1_n_n none _ _ j).trans ?_
  rw [← Equiv.sum_comp (ValueIdx.contrEquiv1 dot_S10000x48_S48x32_S10000x32_1_0_0_1_n_n 48 rfl rfl).symm]
  refine Finset.sum_congr rfl fun k _ => ?_
  have hk := ValueIdx.contrEquiv1_symm_val dot_S10000x48_S48x32_S10000x32_1_0_0_1_n_n 48 rfl rfl k
  have el : dot_S10000x48_S48x32_S10000x32_1_0_0_1_n_n.lhsIdx j ((ValueIdx.contrEquiv1 dot_S10000x48_S48x32_S10000x32_1_0_0_1_n_n 48 rfl rfl).symm k) = leftBlk j k := funext fun a => Fin.ext (by
    match a with
    | ⟨0, _⟩ => exact lhs_row _ _
    | ⟨1, _⟩ => exact (lhs_col _ _).trans hk)
  have er : dot_S10000x48_S48x32_S10000x32_1_0_0_1_n_n.rhsIdx j ((ValueIdx.contrEquiv1 dot_S10000x48_S48x32_S10000x32_1_0_0_1_n_n 48 rfl rfl).symm k) = rightBlk j k := funext fun a => Fin.ext (by
    match a with
    | ⟨0, _⟩ => exact (rhs_row _ _).trans hk
    | ⟨1, _⟩ => exact rhs_col _ _)
  show (shapeCast S10000x48 x0 shapeCasts_S10000x48_S10000x48) (dot_S10000x48_S48x32_S10000x32_1_0_0_1_n_n.lhsIdx j _) * x1 (dot_S10000x48_S48x32_S10000x32_1_0_0_1_n_n.rhsIdx j _) = _
  rw [shapeCast_self]
  rw [el, er]

/-! ## From the ten blocks to the array -/

/-- A product of two reads moves along equal indices. -/
theorem mul_congr_at {ι κ : Type} (f : ι → EReal) (g : κ → EReal) {a a' : ι} {b b' : κ} (ha : a = a') (hb : b = b') :
    f a * g b = f a' * g b' := by rw [ha, hb]

theorem hz : (![0, 0] : Fin 2 → Nat) = fun _ => 0 := funext fun a => by fin_cases a <;> rfl

/-- The three windows' block positions at point `t`: the left array's and the output's blocks move down one block of rows per
    point, the right array's one block stays (decided over the ten points). -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- WHAT POINT `t` WRITES BACK is block `t` of the product of the two arrays as the region finds them. -/
theorem flushed_eq (c : Dev nD) (t : Fin cfg1.N) :
    (dat1 V c).flushed 2 t = ((cfg1.win 2).blk t).view.read (Elt Ideal) (rowsTimes (V c main_v47) (V c main_arg4)) := by
  show (cfg1.win 2).cut (grid1.coords t) ((dat1 V c).after 2 t) = _
  rw [after1_2]
  unfold out1_2
  rw [View.canon_unit_zero hz]
  simp only [View.ld_unit_zero (S := S10000x48) hz, View.ld_unit_zero (S := S48x32) hz]
  obtain ⟨e0, e1, e2, e3, e4, e5⟩ := block_positions t
  funext j
  show k1_pay1 (iblk1 V c 0 t) (iblk1 V c 1 t) j = rowsTimes (V c main_v47) (V c main_arg4) (((cfg1.win 2).blk t).view.emb j)
  refine (stored_apply (iblk1 V c 0 t) (iblk1 V c 1 t) j).trans ?_
  refine Finset.sum_congr rfl fun k _ => ?_
  have h0 : ((cfg1.win 0).blk t).view.emb (leftBlk j k) = leftAt (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 48 + 1 * k.val = k.val; omega
  have h1 : ((cfg1.win 1).blk t).view.emb (rightBlk j k) = rightAt (((cfg1.win 2).blk t).view.emb j) k := by
    funext a; apply Fin.ext
    match a with
    | ⟨0, _⟩ => show win1_1.index t (0 : Fin 2) * 48 + 1 * k.val = k.val; omega
    | ⟨1, _⟩ => show win1_1.index t (1 : Fin 2) * 32 + 1 * (j 1).val = win1_2.index t (1 : Fin 2) * 32 + 1 * (j 1).val; omega
  exact mul_congr_at (V c main_v47) (V c main_arg4) h0 h1

/-- An index of the output array is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- Every index of the output array is in some point's block: row `r` is in the block of point `r / 10000`. -/
theorem covered (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ : ∃ t : Fin cfg1.N, t.val = (i 0).val / 10000 := ⟨⟨(i 0).val / 10000, by rw [show cfg1.N = 10 from N_1]; omega⟩, rfl⟩
  obtain ⟨e0, e1, e2, e3, e4, e5⟩ := block_positions t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- THE OUTPUT ARRAY after the region's last point is the product of the two arrays as the region finds them. -/
theorem array_eq (c : Dev nD) : (dat1 V c).arrAt 2 cfg1.N = rowsTimes (V c main_v47) (V c main_arg4) :=
  (dat1 V c).arrAt_eq_of_cover 2 (rowsTimes (V c main_v47) (V c main_arg4)) (fun t _ => flushed_eq V c t) covered

end

end Cert.KernelIdeal.Region1

end
-- ==== Proof.Boundaries.lean ====
/-
  The kernel's program, read boundary by boundary.

  The program is three stretches of host operations with two matrix products between them, each product a region tiled by rows.
  Write x, e, W₁, b₁, W₂, b₂ for the six arguments. The first stretch computes, from the edge list `e` alone, the source and target
  lists with the self loops appended and the per-edge weight (the product of the two end points' inverse square-root degrees);
  the first region computes `x·W₁`; the second stretch gathers its rows along the sources, weighs them, adds them up at the targets,
  adds `b₁` and clamps at zero; the second region multiplies that by `W₂`; the last stretch gathers, weighs, adds up and adds `b₂`.
  The reference is the same operations in the same order with each region replaced by one whole matrix product, and its stages are
  named one by one. So at every boundary of the kernel's program each buffer that a later operation reads holds the reference's stage
  of the same name: for a host stretch by reading the stretch's operations off the buffers it starts from (those buffers taken as
  given, so that only the stretch's own operations are compared), for a region by the region's whole-array product (the product of two
  arrays, entry (r, q) the sum over k of left(r, k)·right(k, q), is what the reference's product is over the extended reals), for a
  buffer nothing writes by carrying it across.
-/
import proofs.«164830_j17514876634161_1_alg».proof.Proof.Gen.KernelIdeal.Frame
import proofs.«164830_j17514876634161_1_alg».proof.Proof.Region0
import proofs.«164830_j17514876634161_1_alg».proof.Proof.Region1
import proofs.«164830_j17514876634161_1_alg».proof.Proof.RefRead
import proofs.«164830_j17514876634161_1_alg».proof.Proof.LibConcatenateSimp
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

attribute [local congr] Cert.LibConcatenateSimp.concatenate2_congr

/-! ## The two products are the reference's -/

/-- The first region's whole-array product is the reference's first product. -/
theorem product0_eq (x : (⟨S100000x128, .f32⟩ : BufTy).Contents (Elt Ideal)) (w : (⟨S128x48, .f32⟩ : BufTy).Contents (Elt Ideal)) :
    Region0.rowsTimes x w = Cert.ReferenceIdeal.ReadP.val_main_v30 (F := Ideal) x w := by
  funext i
  rw [Cert.ReferenceIdeal.ReadP.val_main_v30_apply]
  rfl

/-- The second region's whole-array product of the first layer's output and the second weight is the reference's second product. -/
theorem product1_eq (x0 : (⟨S100000x128, .f32⟩ : BufTy).Contents (Elt Ideal)) (x1 : (⟨S2x1600000, .i32⟩ : BufTy).Contents (Elt Ideal))
    (x2 : (⟨S128x48, .f32⟩ : BufTy).Contents (Elt Ideal)) (x3 : (⟨S48, .f32⟩ : BufTy).Contents (Elt Ideal)) (x4 : (⟨S48x32, .f32⟩ : BufTy).Contents (Elt Ideal)) :
    Region1.rowsTimes (Cert.ReferenceIdeal.ReadP.val_main_v47 (F := Ideal) x0 x1 x2 x3) x4 = Cert.ReferenceIdeal.ReadP.val_main_v48 (F := Ideal) x0 x1 x2 x3 x4 := by
  funext i
  rw [Cert.ReferenceIdeal.ReadP.val_main_v48_apply]
  rfl

variable (m : (ℓ : Loc nD τ sig) → Buf (Elt Ideal) ℓ) (ρ : Dev nD → PrngReg) (c : Dev nD)

/-! ## The first stretch, in three steps: up to the degrees, the choice of the inverse square root where the degree is positive,
    and the weights -/

/-- After the first step: where the degree is positive, -/
theorem step1_v12 : W1 m ρ c (Proc.devRef .tc main_v12) = Cert.ReferenceIdeal.ReadP.val_main_v12 (F := Ideal) (m ((c : Thread nD τ).loc main_arg1)) := by
  dsimp only [W1, W0, hostOps0]
  after_results_simp <;> rfl
/-- the inverse square root of the degree, -/
theorem step1_v13 : W1 m ρ c (Proc.devRef .tc main_v13) = Cert.ReferenceIdeal.ReadP.val_main_v13 (F := Ideal) (m ((c : Thread nD τ).loc main_arg1)) := by
  dsimp only [W1, W0, hostOps0]
  after_results_simp <;> rfl
/-- and the zero to put elsewhere. -/
theorem step1_cst_2 : W1 m ρ c (Proc.devRef .tc main_cst_2) = Cert.ReferenceIdeal.ReadP.val_main_cst_2 (F := Ideal) := by
  dsimp only [W1, W0, hostOps0]
  after_results_simp <;> rfl

/-- After the second step: the inverse square-root degree, zero where the degree is not positive. -/
theorem step2_v14 : W2 m ρ c (Proc.devRef .tc main_v14) = Cert.ReferenceIdeal.ReadP.val_main_v14 (F := Ideal) (m ((c : Thread nD τ).loc main_arg1)) := by
  have h12 := step1_v12 m ρ c
  have h13 := step1_v13 m ρ c
  have hc := step1_cst_2 m ρ c
  dsimp only [W2, hostOps0_1]
  generalize W1 m ρ c = V at h12 h13 hc ⊢
  after_results_simp
  refine Eq.trans (b := select (V (Proc.devRef .tc main_v12)) (V (Proc.devRef .tc main_v13))
    (broadcastInDim S100000 ![] bcast_S_S100000 (id (V (Proc.devRef .tc main_cst_2))))) rfl ?_
  rw [h12, h13, hc]
  unfold Cert.ReferenceIdeal.ReadP.val_main_v14 Cert.ReferenceIdeal.ReadP.val_main_call0_v1 Cert.ReferenceIdeal.ReadP.val_main_call0_v0
  rfl
/-- The source list with the self loops appended, -/
theorem step2_v5 : W2 m ρ c (Proc.devRef .tc main_v5) = Cert.ReferenceIdeal.ReadP.val_main_v5 (F := Ideal) (m ((c : Thread nD τ).loc main_arg1)) := by
  dsimp only [W2, W1, W0, hostOps0, hostOps0_1]
  after_results_simp <;> rfl
/-- and the target list. -/
theorem step2_v6 : W2 m ρ c (Proc.devRef .tc main_v6) = Cert.ReferenceIdeal.ReadP.val_main_v6 (F := Ideal) (m ((c : Thread nD τ).loc main_arg1)) := by
  dsimp only [W2, W1, W0, hostOps0, hostOps0_1]
  after_results_simp <;> rfl

/-! ## Entering the first region: the edge lists, the weights, and the arguments as launched -/

/-- The per-edge weight: the product of the two end points' inverse square-root degrees. -/
theorem entry0_v29 : W3 m ρ c (Proc.devRef .tc main_v29) = Cert.ReferenceIdeal.ReadP.val_main_v29 (F := Ideal) (m ((c : Thread nD τ).loc main_arg1)) := by
  have h14 := step2_v14 m ρ c
  have h5 := step2_v5 m ρ c
  have h6 := step2_v6 m ρ c
  dsimp only [W3, hostOps0_2]
  generalize W2 m ρ c = V at h14 h5 h6 ⊢
  after_results_simp
  rw [h14, h5, h6]
  rfl
/-- The source list with the self loops appended. -/
theorem entry0_v5 : W3 m ρ c (Proc.devRef .tc main_v5) = Cert.ReferenceIdeal.ReadP.val_main_v5 (F := Ideal) (m ((c : Thread nD τ).loc main_arg1)) := by
  dsimp only [W3, W2, W1, W0, hostOps0, hostOps0_1, hostOps0_2]
  after_results_simp <;> rfl
/-- The target list with the self loops appended. -/
theorem entry0_v6 : W3 m ρ c (Proc.devRef .tc main_v6) = Cert.ReferenceIdeal.ReadP.val_main_v6 (F := Ideal) (m ((c : Thread nD τ).loc main_arg1)) := by
  dsimp only [W3, W2, W1, W0, hostOps0, hostOps0_1, hostOps0_2]
  after_results_simp <;> rfl
/-- No host operation writes argument 0. -/
theorem entry0_arg0 : W3 m ρ c (Proc.devRef .tc main_arg0) = (m ((c : Thread nD τ).loc main_arg0)) := by
  dsimp only [W3, W2, W1, W0, hostOps0, hostOps0_1, hostOps0_2]
  after_results_simp <;> rfl
/-- No host operation writes argument 2. -/
theorem entry0_arg2 : W3 m ρ c (Proc.devRef .tc main_arg2) = (m ((c : Thread nD τ).loc main_arg2)) := by
  dsimp only [W3, W2, W1, W0, hostOps0, hostOps0_1, hostOps0_2]
  after_results_simp <;> rfl
/-- No host operation writes argument 3. -/
theorem entry0_arg3 : W3 m ρ c (Proc.devRef .tc main_arg3) = (m ((c : Thread nD τ).loc main_arg3)) := by
  dsimp only [W3, W2, W1, W0, hostOps0, hostOps0_1, hostOps0_2]
  after_results_simp <;> rfl
/-- No host operation writes argument 4. -/
theorem entry0_arg4 : W3 m ρ c (Proc.devRef .tc main_arg4) = (m ((c : Thread nD τ).loc main_arg4)) := by
  dsimp only [W3, W2, W1, W0, hostOps0, hostOps0_1, hostOps0_2]
  after_results_simp <;> rfl
/-- No host operation writes argument 5. -/
theorem entry0_arg5 : W3 m ρ c (Proc.devRef .tc main_arg5) = (m ((c : Thread nD τ).loc main_arg5)) := by
  dsimp only [W3, W2, W1, W0, hostOps0, hostOps0_1, hostOps0_2]
  after_results_simp <;> rfl

/-! ## Leaving the first region -/

/-- The region's output array is the reference's first product of the arguments. -/
theorem exit0_v30 : W4 m ρ c (Proc.devRef .tc main_v30) = Cert.ReferenceIdeal.ReadP.val_main_v30 (F := Ideal) (m ((c : Thread nD τ).loc main_arg0)) (m ((c : Thread nD τ).loc main_arg2)) := by
  refine (W4_arr m ρ c 2).trans ?_
  refine (Region0.array_eq (V3 m ρ) c).trans ?_
  show Region0.rowsTimes (W3 m ρ c (Proc.devRef .tc main_arg0)) (W3 m ρ c (Proc.devRef .tc main_arg2)) = _
  rw [entry0_arg0 m ρ c, entry0_arg2 m ρ c]
  exact product0_eq _ _
/-- The region writes nothing else. -/
theorem exit0_v5 : W4 m ρ c (Proc.devRef .tc main_v5) = Cert.ReferenceIdeal.ReadP.val_main_v5 (F := Ideal) (m ((c : Thread nD τ).loc main_arg1)) :=
  (W4_of_ne m ρ c main_v5 (by decide)).trans (entry0_v5 m ρ c)
/-- The region writes nothing else. -/
theorem exit0_v6 : W4 m ρ c (Proc.devRef .tc main_v6) = Cert.ReferenceIdeal.ReadP.val_main_v6 (F := Ideal) (m ((c : Thread nD τ).loc main_arg1)) :=
  (W4_of_ne m ρ c main_v6 (by decide)).trans (entry0_v6 m ρ c)
/-- The region writes nothing else. -/
theorem exit0_v29 : W4 m ρ c (Proc.devRef .tc main_v29) = Cert.ReferenceIdeal.ReadP.val_main_v29 (F := Ideal) (m ((c : Thread nD τ).loc main_arg1)) :=
  (W4_of_ne m ρ c main_v29 (by decide)).trans (entry0_v29 m ρ c)
theorem exit0_arg3 : W4 m ρ c (Proc.devRef .tc main_arg3) = (m ((c : Thread nD τ).loc main_arg3)) :=
  (W4_of_ne m ρ c main_arg3 (by decide)).trans (entry0_arg3 m ρ c)
theorem exit0_arg4 : W4 m ρ c (Proc.devRef .tc main_arg4) = (m ((c : Thread nD τ).loc main_arg4)) :=
  (W4_of_ne m ρ c main_arg4 (by decide)).trans (entry0_arg4 m ρ c)
theorem exit0_arg5 : W4 m ρ c (Proc.devRef .tc main_arg5) = (m ((c : Thread nD τ).loc main_arg5)) :=
  (W4_of_ne m ρ c main_arg5 (by decide)).trans (entry0_arg5 m ρ c)

/-! ## The second stretch, in two steps: up to the bias, and the clamp at zero -/

/-- The first product gathered along the sources, weighed, added up at the targets, the bias added. -/
theorem step5_v46 : W5 m ρ c (Proc.devRef .tc main_v46) = Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) := by
  dsimp only [W5, hostOps1]
  after_results_simp
  rw [exit0_v30 m ρ c, exit0_v5 m ρ c, exit0_v6 m ρ c, exit0_v29 m ρ c, exit0_arg3 m ρ c]
  unfold Cert.ReferenceIdeal.ReadP.val_main_v46 Cert.ReferenceIdeal.ReadP.val_main_v45 Cert.ReferenceIdeal.ReadP.val_main_v44 Cert.ReferenceIdeal.ReadP.val_main_v43 Cert.ReferenceIdeal.ReadP.val_main_v42 Cert.ReferenceIdeal.ReadP.val_main_v41 Cert.ReferenceIdeal.ReadP.val_main_cst_8 Cert.ReferenceIdeal.ReadP.val_main_v40 Cert.ReferenceIdeal.ReadP.val_main_v39 Cert.ReferenceIdeal.ReadP.val_main_v38 Cert.ReferenceIdeal.ReadP.val_main_v37 Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_c_7 Cert.ReferenceIdeal.ReadP.val_main_v32 Cert.ReferenceIdeal.ReadP.val_main_v31 Cert.ReferenceIdeal.ReadP.val_main_c_6
  rfl

/-! ## Entering the second region -/

/-- The first layer's output: that, clamped at zero. -/
theorem entry1_v47 : W6 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  have h46 := step5_v46 m ρ c
  dsimp only [W6, hostOps1_1]
  generalize W5 m ρ c = V at h46 ⊢
  after_results_simp
  refine Eq.trans (b := maximumf (V (Proc.devRef .tc main_v46))
    (broadcastInDim S100000x48 ![] bcast_S_S100000x48 (constant (F := Ideal) S_ .f32 0x00000000#32))) rfl ?_
  rw [h46]
  unfold Cert.ReferenceIdeal.ReadP.val_main_v47 Cert.ReferenceIdeal.ReadP.val_main_call1_v0 Cert.ReferenceIdeal.ReadP.val_main_call1_cst
  rfl
/-- The second stretch leaves it as it was. -/
theorem entry1_v5 : W6 m ρ c (Proc.devRef .tc main_v5) = Cert.ReferenceIdeal.ReadP.val_main_v5 (F := Ideal) (m ((c : Thread nD τ).loc main_arg1)) := by
  dsimp only [W6, W5, hostOps1, hostOps1_1]
  after_results_simp
  exact exit0_v5 m ρ c
/-- The second stretch leaves it as it was. -/
theorem entry1_v6 : W6 m ρ c (Proc.devRef .tc main_v6) = Cert.ReferenceIdeal.ReadP.val_main_v6 (F := Ideal) (m ((c : Thread nD τ).loc main_arg1)) := by
  dsimp only [W6, W5, hostOps1, hostOps1_1]
  after_results_simp
  exact exit0_v6 m ρ c
/-- The second stretch leaves it as it was. -/
theorem entry1_v29 : W6 m ρ c (Proc.devRef .tc main_v29) = Cert.ReferenceIdeal.ReadP.val_main_v29 (F := Ideal) (m ((c : Thread nD τ).loc main_arg1)) := by
  dsimp only [W6, W5, hostOps1, hostOps1_1]
  after_results_simp
  exact exit0_v29 m ρ c
theorem entry1_arg4 : W6 m ρ c (Proc.devRef .tc main_arg4) = (m ((c : Thread nD τ).loc main_arg4)) := by
  dsimp only [W6, W5, hostOps1, hostOps1_1]
  after_results_simp
  exact exit0_arg4 m ρ c
theorem entry1_arg5 : W6 m ρ c (Proc.devRef .tc main_arg5) = (m ((c : Thread nD τ).loc main_arg5)) := by
  dsimp only [W6, W5, hostOps1, hostOps1_1]
  after_results_simp
  exact exit0_arg5 m ρ c

/-! ## Leaving the second region -/

theorem exit1_v48 : W7 m ρ c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Region1.array_eq (V6 m ρ) c).trans ?_
  show Region1.rowsTimes (W6 m ρ c (Proc.devRef .tc main_v47)) (W6 m ρ c (Proc.devRef .tc main_arg4)) = _
  rw [entry1_v47 m ρ c, entry1_arg4 m ρ c]
  exact product1_eq _ _ _ _ _
theorem exit1_v5 : W7 m ρ c (Proc.devRef .tc main_v5) = Cert.ReferenceIdeal.ReadP.val_main_v5 (F := Ideal) (m ((c : Thread nD τ).loc main_arg1)) :=
  (W7_of_ne m ρ c main_v5 (by decide)).trans (entry1_v5 m ρ c)
theorem exit1_v6 : W7 m ρ c (Proc.devRef .tc main_v6) = Cert.ReferenceIdeal.ReadP.val_main_v6 (F := Ideal) (m ((c : Thread nD τ).loc main_arg1)) :=
  (W7_of_ne m ρ c main_v6 (by decide)).trans (entry1_v6 m ρ c)
theorem exit1_v29 : W7 m ρ c (Proc.devRef .tc main_v29) = Cert.ReferenceIdeal.ReadP.val_main_v29 (F := Ideal) (m ((c : Thread nD τ).loc main_arg1)) :=
  (W7_of_ne m ρ c main_v29 (by decide)).trans (entry1_v29 m ρ c)
theorem exit1_arg5 : W7 m ρ c (Proc.devRef .tc main_arg5) = (m ((c : Thread nD τ).loc main_arg5)) :=
  (W7_of_ne m ρ c main_arg5 (by decide)).trans (entry1_arg5 m ρ c)

/-! ## The result -/

/-- After the last stretch the result buffer holds the reference's last stage of the six arguments. -/
theorem result_eq : W8 m ρ c (Proc.devRef .tc main_v64)
    = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W8, hostOps2]
  after_results_simp
  rw [exit1_v48 m ρ c, exit1_v5 m ρ c, exit1_v6 m ρ c, exit1_v29 m ρ c, exit1_arg5 m ρ c]
  unfold Cert.ReferenceIdeal.ReadP.val_main_v64 Cert.ReferenceIdeal.ReadP.val_main_v63 Cert.ReferenceIdeal.ReadP.val_main_v62 Cert.ReferenceIdeal.ReadP.val_main_v61 Cert.ReferenceIdeal.ReadP.val_main_v60 Cert.ReferenceIdeal.ReadP.val_main_v59 Cert.ReferenceIdeal.ReadP.val_main_cst_11 Cert.ReferenceIdeal.ReadP.val_main_v58 Cert.ReferenceIdeal.ReadP.val_main_v57 Cert.ReferenceIdeal.ReadP.val_main_v56 Cert.ReferenceIdeal.ReadP.val_main_v55 Cert.ReferenceIdeal.ReadP.val_main_v54 Cert.ReferenceIdeal.ReadP.val_main_v53 Cert.ReferenceIdeal.ReadP.val_main_v52 Cert.ReferenceIdeal.ReadP.val_main_v51 Cert.ReferenceIdeal.ReadP.val_main_c_10 Cert.ReferenceIdeal.ReadP.val_main_v50 Cert.ReferenceIdeal.ReadP.val_main_v49 Cert.ReferenceIdeal.ReadP.val_main_c_9
  rfl

end Cert.KernelIdeal.Boundaries

end
-- ==== Proof.lean ====
/-
  A two-layer graph convolution, `out = Â·relu(Â·(x·W₁) + b₁)·W₂ + b₂` with `Â` the symmetrically normalised adjacency of
  the edge list with self loops, written as gathers of rows along the edges' sources, a per-edge weight, and sums at the
  edges' targets. The kernel's program and the reference's perform the SAME host operations in the same order; they differ only in
  the two matrix products `x·W₁` and `h·W₂`: the reference takes each as one whole product, the kernel's program computes each in a
  region of ten grid points, point `t` multiplying rows `10000·t … 10000·t + 9999` of the left array by the whole right array after
  narrowing both to a shorter float format.

  Over the extended reals the narrowing is the identity and a product accumulated from zero is the plain sum over the contraction
  index, so each point's block is a block of the one function "entry (r, q) is `Σ_k left(r, k)·right(k, q)`" of the two whole arrays
  (Proof/Region0.lean, Proof/Region1.lean), the ten row blocks tile the output, and the region's output array is that function — which
  is what the reference's whole product is, entry by entry. Everything else is carried across unchanged: at each boundary between a
  stretch of host operations and a region, every buffer a later operation reads holds the value of the reference's stage of the same
  name (Proof/Boundaries.lean), up to the result. No law that needs finite values is used: both sides are the same sums of the same
  products in the same order, so the precondition is never opened.

  The three frames are the programs' runs with the result dropped; the idealization rewrote nothing, so there is nothing to preserve.
-/
import proofs.«164830_j17514876634161_1_alg».proof.Defs
import proofs.«164830_j17514876634161_1_alg».proof.Proof.Gen.Kernel
import proofs.«164830_j17514876634161_1_alg».proof.Proof.Gen.Kernel.Frame
import proofs.«164830_j17514876634161_1_alg».proof.Proof.Gen.KernelIdeal
import proofs.«164830_j17514876634161_1_alg».proof.Proof.Gen.KernelIdeal.Frame
import proofs.«164830_j17514876634161_1_alg».proof.Proof.Gen.ReferenceIdeal
import proofs.«164830_j17514876634161_1_alg».proof.Proof.Gen.Pre_finite_inputs
import proofs.«164830_j17514876634161_1_alg».proof.Proof.KernelRun
import proofs.«164830_j17514876634161_1_alg».proof.Proof.RefRun
import proofs.«164830_j17514876634161_1_alg».proof.Proof.RefRead
import proofs.«164830_j17514876634161_1_alg».proof.Proof.Boundaries
import Idealize.ShloMosaic.Adequacy
import Idealize.ShloMosaic.Init

noncomputable section

namespace Cert.Proof

open Idealize.ShloMosaic Idealize.SL.Sem

/-- The kernel's program as printed runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the six arguments both programs end with the result buffer at the reference's last stage of those
    arguments: the kernel's by reading its program boundary by boundary, the reference's by its run. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.GenP.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact (Cert.KernelIdeal.Boundaries.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
